-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000 : Shape := ⟨1, ![1000000]⟩
abbrev S8192 : Shape := ⟨1, ![8192]⟩
abbrev S_ : Shape := ⟨0, ![]⟩

class Facts : Prop where
  bcast_S_S1000000 : S_.BroadcastsInDim S1000000 (![] : Fin 0 → Fin S1000000.rank)
  reducesTo_S1000000_S_d0 : S1000000.ReducesTo [0] S_
  h_S_ : 0 < S_.numel

variable [Facts]

def fn {F : FTy → Type} [FloatOps F] (main_arg0 : FVec F S1000000 .f32) (main_arg1 : FVec F S1000000 .f32) (main_arg2 : IVec S8192 32) : IVec S_ 1 :=
  let main_v0 : FVec F S1000000 .f32 := Host.absf main_arg0
  let main_cst : FVec F S_ .f32 := constant S_ .f32 0x7F800000#32
  let main_v1 : FVec F S1000000 .f32 := broadcastInDim S1000000 ![] bcast_S_S1000000 main_cst
  let main_v2 : IVec S1000000 1 := cmpf .olt main_v0 main_v1
  let main_c : IVec S_ 1 := constantI S_ 1 1#1
  let main_v3 : IVec S_ 1 := (fun x v => Host.reduce IntOp.andi x v reducesTo_S1000000_S_d0 h_S_) main_v2 main_c
  let main_v4 : FVec F S1000000 .f32 := Host.absf main_arg1
  let main_cst_0 : FVec F S_ .f32 := constant S_ .f32 0x7F800000#32
  let main_v5 : FVec F S1000000 .f32 := broadcastInDim S1000000 ![] bcast_S_S1000000 main_cst_0
  let main_v6 : IVec S1000000 1 := cmpf .olt main_v4 main_v5
  let main_c_1 : IVec S_ 1 := constantI S_ 1 1#1
  let main_v7 : IVec S_ 1 := (fun x v => Host.reduce IntOp.andi x v reducesTo_S1000000_S_d0 h_S_) main_v6 main_c_1
  let main_v8 : IVec S_ 1 := andi main_v3 main_v7
  main_v8
-- ==== Kernel.lean ====
abbrev S1000000 : Shape := ⟨1, ![1000000]⟩
abbrev S8192 : Shape := ⟨1, ![8192]⟩
abbrev S_ : Shape := ⟨0, ![]⟩
abbrev S8192x1 : Shape := ⟨2, ![8192, 1]⟩
abbrev S1x8192 : Shape := ⟨2, ![1, 8192]⟩
abbrev S1x1 : Shape := ⟨2, ![1, 1]⟩
abbrev S256x1 : Shape := ⟨2, ![256, 1]⟩
abbrev S256x8192 : Shape := ⟨2, ![256, 8192]⟩
abbrev S256 : Shape := ⟨1, ![256]⟩
abbrev S1 : Shape := ⟨1, ![1]⟩

abbrev nBuf : Space → Nat
  | .hbm => 27
  | .vmem => 8
  | .smem => 0
  | _ => 0

abbrev bufTy : (tb : Table) → Fin (tcTables nBuf tb) → BufTy
  | .hbm, ⟨0, _⟩ => ⟨S1000000, .f32⟩
  | .hbm, ⟨1, _⟩ => ⟨S1000000, .f32⟩
  | .hbm, ⟨2, _⟩ => ⟨S8192, .i32⟩
  | .hbm, ⟨3, _⟩ => ⟨S_, .i32⟩
  | .hbm, ⟨4, _⟩ => ⟨S8192, .i32⟩
  | .hbm, ⟨5, _⟩ => ⟨S8192, .i1⟩
  | .hbm, ⟨6, _⟩ => ⟨S_, .i32⟩
  | .hbm, ⟨7, _⟩ => ⟨S8192, .i32⟩
  | .hbm, ⟨8, _⟩ => ⟨S8192, .i32⟩
  | .hbm, ⟨9, _⟩ => ⟨S8192, .i32⟩
  | .hbm, ⟨10, _⟩ => ⟨S8192x1, .i32⟩
  | .hbm, ⟨11, _⟩ => ⟨S8192, .f32⟩
  | .hbm, ⟨12, _⟩ => ⟨S_, .i32⟩
  | .hbm, ⟨13, _⟩ => ⟨S8192, .i32⟩
  | .hbm, ⟨14, _⟩ => ⟨S8192, .i1⟩
  | .hbm, ⟨15, _⟩ => ⟨S_, .i32⟩
  | .hbm, ⟨16, _⟩ => ⟨S8192, .i32⟩
  | .hbm, ⟨17, _⟩ => ⟨S8192, .i32⟩
  | .hbm, ⟨18, _⟩ => ⟨S8192, .i32⟩
  | .hbm, ⟨19, _⟩ => ⟨S8192x1, .i32⟩
  | .hbm, ⟨20, _⟩ => ⟨S8192, .f32⟩
  | .hbm, ⟨21, _⟩ => ⟨S8192x1, .f32⟩
  | .hbm, ⟨22, _⟩ => ⟨S8192x1, .f32⟩
  | .hbm, ⟨23, _⟩ => ⟨S1x8192, .f32⟩
  | .hbm, ⟨24, _⟩ => ⟨S1x8192, .f32⟩
  | .hbm, ⟨25, _⟩ => ⟨S1x1, .f32⟩
  | .hbm, ⟨26, _⟩ => ⟨S_, .f32⟩
  | .local _ .vmem, ⟨0, _⟩ => ⟨S256x1, .f32⟩
  | .local _ .vmem, ⟨1, _⟩ => ⟨S256x1, .f32⟩
  | .local _ .vmem, ⟨2, _⟩ => ⟨S256x1, .f32⟩
  | .local _ .vmem, ⟨3, _⟩ => ⟨S256x1, .f32⟩
  | .local _ .vmem, ⟨4, _⟩ => ⟨S1x8192, .f32⟩
  | .local _ .vmem, ⟨5, _⟩ => ⟨S1x8192, .f32⟩
  | .local _ .vmem, ⟨6, _⟩ => ⟨S1x1, .f32⟩
  | .local _ .vmem, ⟨7, _⟩ => ⟨S1x1, .f32⟩
  | _, _ => ⟨S1000000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c_1 : Ref sig .tc := ⟨.hbm, 12, rfl⟩
abbrev main_v7 : Ref sig .tc := ⟨.hbm, 13, rfl⟩
abbrev main_v8 : Ref sig .tc := ⟨.hbm, 14, rfl⟩
abbrev main_c_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v32 : BitVec 1 := Scalar.cmpi .eq arg0 c31_i32
  let v33 : BitVec 32 := Scalar.extui v32
  let c0_i32_16 : BitVec 32 := 0#32
  let v34 : BitVec 1 := Scalar.cmpi .ne v33 c0_i32_16
  v34

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

class Facts₀ : Prop where
  bcast_S_S8192 : S_.BroadcastsInDim S8192 (![] : Fin 0 → Fin S8192.rank)
  bcast_S8192_S8192x1_0 : S8192.BroadcastsInDim S8192x1 (![0] : Fin 1 → Fin S8192x1.rank)
  shapeCasts_S8192_S8192x1 : S8192.ShapeCasts S8192x1
  shapeCasts_S8192_S1x8192 : S8192.ShapeCasts S1x8192
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  broadcasts_S256x1_S256x8192 : S256x1.Broadcasts S256x8192
  broadcasts_S1x8192_S256x8192 : S1x8192.Broadcasts S256x8192
  reduces_S256x8192_S256 : S256x8192.Reduces [1] S256
  shapeCasts_S256_S256x1 : S256.ShapeCasts S256x1
  reduces_S256x1_S1 : S256x1.Reduces [0] S1
  shapeCasts_S1_S1x1 : S1.ShapeCasts S1x1
  shapeCasts_S1x1_S_ : S1x1.ShapeCasts S_
  gather_S1000000_S8192x1_S8192_n_0_n_n_0_1_1_wf : GatherDims.WF S1000000 S8192x1 S8192 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1.size a ≤ S8192x1.size a
  hwx0_0 : ∀ i : grid0.Coords, EltTy.bits .f32 = 32 ∨ (Rect.block (s := S8192x1) S256x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1.size a ≤ S8192x1.size a
  hwx0_1 : ∀ i : grid0.Coords, EltTy.bits .f32 = 32 ∨ (Rect.block (s := S8192x1) S256x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x8192.size a ≤ S1x8192.size a
  hwx0_2 : ∀ i : grid0.Coords, EltTy.bits .f32 = 32 ∨ (Rect.block (s := S1x8192) S1x8192.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x8192.size a ≤ S1x8192.size a
  hwx0_3 : ∀ i : grid0.Coords, EltTy.bits .f32 = 32 ∨ (Rect.block (s := S1x8192) S1x8192.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)

variable [Facts₀]

def gather_S1000000_S8192x1_S8192_n_0_n_n_0_1_1 : GatherDims S1000000 S8192x1 S8192 where
  offsetDims := []
  collapsedSliceDims := [0]
  operandBatchingDims := []
  startIndicesBatchingDims := []
  startIndexMap := [0]
  indexVectorDim := 1
  sliceSizes := ![1]
  wf := gather_S1000000_S8192x1_S8192_n_0_n_n_0_1_1_wf

abbrev win0_0 : Pipeline.Window sig grid0 :=
  Pipeline.Window.ofSpec (Memref.whole main_v14) S256x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S256x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S1x8192.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17) S1x8192.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v18) S1x1.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S1000000 : Shape := ⟨1, ![1000000]⟩
abbrev S8192 : Shape := ⟨1, ![8192]⟩
abbrev S_ : Shape := ⟨0, ![]⟩
abbrev S8192x1 : Shape := ⟨2, ![8192, 1]⟩
abbrev S1x8192 : Shape := ⟨2, ![1, 8192]⟩
abbrev S8192x8192 : Shape := ⟨2, ![8192, 8192]⟩

abbrev nBuf : Space → Nat
  | .hbm => 43
  | .vmem => 0
  | .smem => 0
  | _ => 0

abbrev bufTy : (tb : Table) → Fin (tcTables nBuf tb) → BufTy
  | .hbm, ⟨0, _⟩ => ⟨S1000000, .f32⟩
  | .hbm, ⟨1, _⟩ => ⟨S1000000, .f32⟩
  | .hbm, ⟨2, _⟩ => ⟨S8192, .i32⟩
  | .hbm, ⟨3, _⟩ => ⟨S_, .i32⟩
  | .hbm, ⟨4, _⟩ => ⟨S8192, .i32⟩
  | .hbm, ⟨5, _⟩ => ⟨S8192, .i1⟩
  | .hbm, ⟨6, _⟩ => ⟨S_, .i32⟩
  | .hbm, ⟨7, _⟩ => ⟨S8192, .i32⟩
  | .hbm, ⟨8, _⟩ => ⟨S8192, .i32⟩
  | .hbm, ⟨9, _⟩ => ⟨S8192, .i32⟩
  | .hbm, ⟨10, _⟩ => ⟨S8192x1, .i32⟩
  | .hbm, ⟨11, _⟩ => ⟨S8192, .f32⟩
  | .hbm, ⟨12, _⟩ => ⟨S_, .i32⟩
  | .hbm, ⟨13, _⟩ => ⟨S8192, .i32⟩
  | .hbm, ⟨14, _⟩ => ⟨S8192, .i1⟩
  | .hbm, ⟨15, _⟩ => ⟨S_, .i32⟩
  | .hbm, ⟨16, _⟩ => ⟨S8192, .i32⟩
  | .hbm, ⟨17, _⟩ => ⟨S8192, .i32⟩
  | .hbm, ⟨18, _⟩ => ⟨S8192, .i32⟩
  | .hbm, ⟨19, _⟩ => ⟨S8192x1, .i32⟩
  | .hbm, ⟨20, _⟩ => ⟨S8192, .f32⟩
  | .hbm, ⟨21, _⟩ => ⟨S8192x1, .f32⟩
  | .hbm, ⟨22, _⟩ => ⟨S1x8192, .f32⟩
  | .hbm, ⟨23, _⟩ => ⟨S8192x8192, .f32⟩
  | .hbm, ⟨24, _⟩ => ⟨S8192x8192, .f32⟩
  | .hbm, ⟨25, _⟩ => ⟨S8192x8192, .i1⟩
  | .hbm, ⟨26, _⟩ => ⟨S8192x1, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S1x8192, .f32⟩
  | .hbm, ⟨31, _⟩ => ⟨S8192x8192, .f32⟩
  | .hbm, ⟨32, _⟩ => ⟨S8192x8192, .f32⟩
  | .hbm, ⟨33, _⟩ => ⟨S8192x8192, .f32⟩
  | .hbm, ⟨34, _⟩ => ⟨S_, .f32⟩
  | .hbm, ⟨35, _⟩ => ⟨S8192x8192, .f32⟩
  | .hbm, ⟨36, _⟩ => ⟨S8192x8192, .f32⟩
  | .hbm, ⟨37, _⟩ => ⟨S_, .f32⟩
  | .hbm, ⟨38, _⟩ => ⟨S_, .f32⟩
  | .hbm, ⟨39, _⟩ => ⟨S8192x8192, .f32⟩
  | .hbm, ⟨40, _⟩ => ⟨S8192x8192, .f32⟩
  | .hbm, ⟨41, _⟩ => ⟨S_, .f32⟩
  | .hbm, ⟨42, _⟩ => ⟨S_, .f32⟩
  | _, _ => ⟨S1000000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c_1 : Ref sig .tc := ⟨.hbm, 12, rfl⟩
abbrev main_v7 : Ref sig .tc := ⟨.hbm, 13, rfl⟩
abbrev main_v8 : Ref sig .tc := ⟨.hbm, 14, rfl⟩
abbrev main_c_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_call0_cst : Ref sig .tc := ⟨.hbm, 34, rfl⟩
abbrev main_call0_v0 : Ref sig .tc := ⟨.hbm, 35, rfl⟩
abbrev main_v26 : Ref sig .tc := ⟨.hbm, 36, rfl⟩
abbrev main_cst_3 : Ref sig .tc := ⟨.hbm, 37, rfl⟩
abbrev main_call1_v0 : Ref sig .tc := ⟨.hbm, 38, rfl⟩
abbrev main_call1_v1 : Ref sig .tc := ⟨.hbm, 39, rfl⟩
abbrev main_v27 : Ref sig .tc := ⟨.hbm, 40, rfl⟩
abbrev main_cst_4 : Ref sig .tc := ⟨.hbm, 41, rfl⟩
abbrev main_v28 : Ref sig .tc := ⟨.hbm, 42, rfl⟩

abbrev nD : Nat := 1
abbrev τ : Topo := Topo.v7x

variable {F : FTy → Type} [FloatOps F]

class Facts₀ : Prop where
  bcast_S_S8192 : S_.BroadcastsInDim S8192 (![] : Fin 0 → Fin S8192.rank)
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x1 : S_.BroadcastsInDim S8192x1 (![] : Fin 0 → Fin S8192x1.rank)
  bcast_S_S8192x8192 : S_.BroadcastsInDim S8192x8192 (![] : Fin 0 → Fin S8192x8192.rank)
  reducesTo_S8192x8192_S_d0_1 : S8192x8192.ReducesTo [0, 1] S_
  h_S_ : 0 < S_.numel
  gather_S1000000_S8192x1_S8192_n_0_n_n_0_1_1_wf : GatherDims.WF S1000000 S8192x1 S8192 [] [0] [] [0] [] 1 ![1]

variable [Facts₀]

def gather_S1000000_S8192x1_S8192_n_0_n_n_0_1_1 : GatherDims S1000000 S8192x1 S8192 where
  offsetDims := []
  collapsedSliceDims := [0]
  operandBatchingDims := []
  startIndicesBatchingDims := []
  startIndexMap := [0]
  indexVectorDim := 1
  sliceSizes := ![1]
  wf := gather_S1000000_S8192x1_S8192_n_0_n_n_0_1_1_wf

class Facts : Prop extends Facts₀ where

variable [Facts]
-- ==== Proof.LibSumBlocks.lean ====
/-
  A sum over `Fin (A * B)` read block by block.

  An index `n < A · B` is uniquely `a · B + b` with `a < A` and `b < B` (division with remainder), so a sum over
  all `n` is the sum over the blocks `a` of the sums over the positions `b` inside a block.  Iterated three times
  this splits a sum over `C · I · K · R` indices into four nested sums; the case `2 · 64 · 16 · 512 = 1048576` is
  stated separately.  Only commutativity and associativity of the addition are used, so the statements hold in any
  additive commutative monoid (the extended reals included, infinite entries or not).
-/
import Mathlib.Algebra.BigOperators.Fin
import Mathlib.Logic.Equiv.Fin.Basic
import Mathlib.Data.Fintype.BigOperators

open scoped BigOperators

namespace Idealize.ShloMosaic.SumBlocks

/-- The index `a · B + b` of position `b` in block `a` is below `A · B`. -/
theorem idx_lt {A B : ℕ} (a : Fin A) (b : Fin B) : a.val * B + b.val < A * B :=
  calc a.val * B + b.val < a.val * B + B := Nat.add_lt_add_left b.isLt _
    _ = (a.val + 1) * B := (Nat.succ_mul _ _).symm
    _ ≤ A * B := Nat.mul_le_mul_right B a.isLt

/-- A sum over `Fin (A * B)` is the sum over the `A` blocks of the sums over the `B` positions of a block. -/
theorem sum_blocks {M : Type*} [AddCommMonoid M] {A B : ℕ} (f : Fin (A * B) → M) :
    ∑ n, f n = ∑ a : Fin A, ∑ b : Fin B, f ⟨a.val * B + b.val, idx_lt a b⟩ := by
  rw [← Equiv.sum_comp finProdFinEquiv f, Fintype.sum_prod_type]
  refine Finset.sum_congr rfl fun a _ => Finset.sum_congr rfl fun b _ => congrArg f (Fin.ext ?_)
  simp only [finProdFinEquiv_apply_val]
  rw [Nat.add_comm, Nat.mul_comm]

/-- The index of position `r` of block `k` of block `i` of block `c` is below `C · I · K · R`. -/
theorem idx4_lt {C I K R : ℕ} (c : Fin C) (i : Fin I) (k : Fin K) (r : Fin R) :
    ((c.val * I + i.val) * K + k.val) * R + r.val < C * I * K * R :=
  idx_lt (⟨(c.val * I + i.val) * K + k.val, idx_lt (⟨c.val * I + i.val, idx_lt c i⟩ : Fin (C * I)) k⟩ : Fin (C * I * K)) r

/-- A sum over `Fin (C * I * K * R)` as four nested sums. -/
theorem sum_blocks4 {M : Type*} [AddCommMonoid M] {C I K R : ℕ} (f : Fin (C * I * K * R) → M) :
    ∑ n, f n = ∑ c : Fin C, ∑ i : Fin I, ∑ k : Fin K, ∑ r : Fin R,
      f ⟨((c.val * I + i.val) * K + k.val) * R + r.val, idx4_lt c i k r⟩ := by
  rw [sum_blocks f,
    sum_blocks (fun x : Fin (C * I * K) => ∑ r : Fin R, f ⟨x.val * R + r.val, idx_lt x r⟩),
    sum_blocks (fun y : Fin (C * I) => ∑ k : Fin K, ∑ r : Fin R,
      f ⟨(y.val * K + k.val) * R + r.val, idx_lt (⟨y.val * K + k.val, idx_lt y k⟩ : Fin (C * I * K)) r⟩)]

/-- The index of row `r` of tile `k` of step `i` of half `c` is below `1048576 = 2 · 64 · 16 · 512`. -/
theorem idx_1048576_lt (c : Fin 2) (i : Fin 64) (k : Fin 16) (r : Fin 512) :
    ((c.val * 64 + i.val) * 16 + k.val) * 512 + r.val < 1048576 :=
  idx4_lt c i k r

/-- A sum over `Fin 1048576` as nested sums over `2`, `64`, `16` and `512` indices. -/
theorem sum_1048576 {M : Type*} [AddCommMonoid M] (f : Fin 1048576 → M) :
    ∑ n, f n = ∑ c : Fin 2, ∑ i : Fin 64, ∑ k : Fin 16, ∑ r : Fin 512,
      f ⟨((c.val * 64 + i.val) * 16 + k.val) * 512 + r.val, idx_1048576_lt c i k r⟩ :=
  sum_blocks4 (C := 2) (I := 64) (K := 16) (R := 512) f

end Idealize.ShloMosaic.SumBlocks
-- ==== Proof.PairSum.lean ====
/-
  The pairwise ranking hinge loss of two sampled vectors, as one function.

  For sampled scores p and labels t of length 8192, the ordered pair (a, b) contributes
      max ((1 − p a) + p b, 0)   when t a > t b,   and 0 otherwise,
  and the loss is the sum of the contributions of all 8192 · 8192 ordered pairs.  The sum is taken row by row:
  `rowTotal a` is the sum over b for a fixed a, and `total` the sum of the row totals.  A sum over the 8192 rows is
  the sum over 32 consecutive blocks of 256 rows (`total_eq_blocks`); only commutativity and associativity of
  addition on the extended reals are used, so nothing here asks the entries to be finite.
-/
import Idealize.ShloMosaic.PureOps.Ideal.Laws
import Idealize.ShloMosaic.Lib.ValueIdx
import proofs.«143990_j13975823581920_1_alg».proof.Proof.LibSumBlocks

noncomputable section

namespace PairHinge

open Idealize.ShloMosaic Idealize.ShloMosaic.ValueIdx
open scoped BigOperators

/-- A vector of 8192 extended reals. -/
abbrev Samples : Type := (⟨1, ![8192]⟩ : Shape).Idx → Ideal .f32

/-- The contribution of one ordered pair: the hinge `max ((1 − pa) + pb, 0)` where `ta > tb`, else zero. The
    constants are the binary32 patterns of 1.0 and 0.0. -/
def pairTerm (pa pb ta tb : Ideal .f32) : Ideal .f32 :=
  Scalar.select (FloatOps.cmpf .ogt ta tb)
    (FloatOps.maximumf (FloatOps.addf (FloatOps.subf (FloatOps.ofBits .f32 0x3F800000#32) pa) pb)
      (FloatOps.ofBits .f32 0x00000000#32))
    (FloatOps.ofBits .f32 0x00000000#32)

/-- The contributions of row `a`: the pairs (a, b) for all b. -/
def rowTotal (p t : Samples) (a : Fin 8192) : Ideal .f32 :=
  ∑ b : Fin 8192, pairTerm (p (ix1 a)) (p (ix1 b)) (t (ix1 a)) (t (ix1 b))

/-- The loss: all ordered pairs. -/
def total (p t : Samples) : Ideal .f32 := ∑ a : Fin 8192, rowTotal p t a

/-- The contributions of the 256 rows of block `n`: rows 256·n … 256·n + 255. -/
def blockTotal (p t : Samples) (n : Fin 32) : Ideal .f32 :=
  ∑ r : Fin 256, rowTotal p t ⟨n.val * 256 + r.val, SumBlocks.idx_lt n r⟩

/-- The loss is the sum over the 32 row blocks of the blocks' contributions. -/
theorem total_eq_blocks (p t : Samples) : total p t = ∑ n : Fin 32, blockTotal p t n :=
  SumBlocks.sum_blocks (A := 32) (B := 256) (rowTotal p t)

end PairHinge

end
-- ==== Proof.RefValue.lean ====
/-
  The reference, read entry by entry: it is the pairwise hinge loss of the sampled scores and labels.

  The reference spreads the sampled labels and scores to [8192, 1] columns and [1, 8192] rows, broadcasts both to
  the full [8192, 8192] square, forms at (a, b) the contribution of the ordered pair (a, b), and sums the square from
  zero.  At (a, b) the column reads entry a and the row entry b of the sampled vector, so the square's entry is
  `pairTerm` of the pair and the whole sum, taken row by row, is `total`.
-/
import proofs.«143990_j13975823581920_1_alg».proof.Proof.Gen.ReferenceIdeal.Read
import proofs.«143990_j13975823581920_1_alg».proof.Proof.PairSum

noncomputable section

namespace Cert.ReferenceIdeal.RefValue

open Idealize.ShloMosaic Idealize.ShloMosaic.ValueIdx
open Cert.ReferenceIdeal Cert.ReferenceIdeal.Gen Cert.ReferenceIdeal.Read PairHinge
open scoped BigOperators

/-- The column and row spreads read back: at (a, b) a column reads entry a, a row entry b. -/
theorem col16 (a b : Fin 8192) : idx_main_v14 (idx_main_v16 (ix2 a b)) = ix1 a :=
  funext fun d => Fin.ext (by match d with | ⟨0, _⟩ => rfl)
theorem row17 (a b : Fin 8192) : idx_main_v15 (idx_main_v17 (ix2 a b)) = ix1 b :=
  funext fun d => Fin.ext (by match d with | ⟨0, _⟩ => rfl)
theorem col23 (a b : Fin 8192) : idx_main_v19 (idx_main_v23 (ix2 a b)) = ix1 a :=
  funext fun d => Fin.ext (by match d with | ⟨0, _⟩ => rfl)
theorem row24 (a b : Fin 8192) : idx_main_v22 (idx_main_v24 (ix2 a b)) = ix1 b :=
  funext fun d => Fin.ext (by match d with | ⟨0, _⟩ => rfl)

/-- The square's entry (a, b) is the contribution of the ordered pair (a, b). -/
theorem square_apply (x0 x1 : (⟨S1000000, .f32⟩ : BufTy).Contents (Elt Ideal)) (x2 : (⟨S8192, .i32⟩ : BufTy).Contents (Elt Ideal))
    (a b : Fin 8192) :
    val_main_v27 (F := Ideal) x0 x1 x2 (ix2 a b)
      = pairTerm (val_main_v6 (F := Ideal) x0 x2 (ix1 a)) (val_main_v6 (F := Ideal) x0 x2 (ix1 b))
          (val_main_v13 (F := Ideal) x1 x2 (ix1 a)) (val_main_v13 (F := Ideal) x1 x2 (ix1 b)) := by
  rw [val_main_v27_apply, val_main_v18_apply, val_main_v16_apply, val_main_v14_apply, val_main_v17_apply,
    val_main_v15_apply, val_main_v26_apply, val_main_v25_apply, val_main_v23_apply, val_main_v21_apply,
    val_main_v20_apply, val_main_cst_apply, val_main_v19_apply, val_main_v24_apply, val_main_v22_apply,
    val_main_call0_v0_apply, val_main_call0_cst_apply, val_main_call1_v1_apply, val_main_call1_v0_apply,
    val_main_cst_3_apply, col16, row17, col23, row24]
  rfl

/-- The reference's result is the loss of the sampled scores and labels. -/
theorem result_eq (x0 x1 : (⟨S1000000, .f32⟩ : BufTy).Contents (Elt Ideal)) (x2 : (⟨S8192, .i32⟩ : BufTy).Contents (Elt Ideal))
    (i : S_.Idx) :
    val_main_v28 (F := Ideal) x0 x1 x2 i
      = total (val_main_v6 (F := Ideal) x0 x2) (val_main_v13 (F := Ideal) x1 x2) := by
  rw [val_main_v28_apply, val_main_cst_4_apply]
  refine (congrArg (· + _) ((Ideal.ofBits_def _).trans Ideal.ofBits_zero_f32)).trans ?_
  rw [zero_add, sum_idx2]
  exact Finset.sum_congr rfl fun a _ => Finset.sum_congr rfl fun b _ => square_apply x0 x1 x2 a b

end Cert.ReferenceIdeal.RefValue

end
-- ==== Proof.BodyPieces.lean ====
/-
  What one run of the body leaves behind, read as values.  The body keeps a one-entry accumulator in a scratch
  buffer.  At the first grid point it clears the accumulator and then adds the point's partial sum to it; at every
  later point it adds the point's partial sum to what the point before left; at the last point it also copies the
  accumulator into the output block.  Here each of these buffers, after the body, is shown to hold the one pure
  term of the body's loads that computes "accumulator + partial sum" (the payload of its single covering store):
  with the cleared accumulator as the starting value at the first point, and the carried value elsewhere.
-/
import proofs.«143990_j13975823581920_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

/-- The zero offsets of a rank-2 rectangle, as a constant function. -/
theorem hz : (![0, 0] : Fin 2 → Nat) = fun _ => 0 := funext fun a => by fin_cases a <;> rfl

/-- A middle point: the accumulator ends at the carried value plus the point's partial sum. -/
theorem scratch_mid (c : Dev nD) (i : grid0.Coords) (a1 : Memref sig .tc .vmem S256x1 .f32) (h1 : a1.IsWhole)
    (a2 : Memref sig .tc .vmem S256x1 .f32) (h2 : a2.IsWhole) (a3 : Memref sig .tc .vmem S1x8192 .f32) (h3 : a3.IsWhole)
    (a4 : Memref sig .tc .vmem S1x8192 .f32) (h4 : a4.IsWhole) (a5 : Memref sig .tc .vmem S1x1 .f32) (h5 : a5.IsWhole)
    (a6 : Memref sig .tc .vmem S1x1 .f32) (h6 : a6.IsWhole) (hc0 : ¬cond0_0 i) (hc1 : ¬cond0_1 i)
    (x0 x1 : Vec F S256x1 .f32) (x2 x3 : Vec F S1x8192 .f32) (xs : Vec F S1x1 .f32) :
    sout0_B_0 c i a1 h1 a2 h2 a3 h3 a4 h4 a5 h5 a6 h6 hc0 hc1 x0 x1 x2 x3 xs = k0_pay2 x0 x1 x2 x3 xs := by
  unfold sout0_B_0
  rw [View.read_writes_eq_canon _ _ _ (scover0_B_0 c i a1 h1 a2 h2 a3 h3 a4 h4 a5 h5 a6 h6 hc0 hc1 x0 x1 x2 x3 xs)]
  unfold kernelRun0_B
  dsimp only
  rw [View.canon_unit_zero hz]
  simp only [View.readAt_eq_ld, h1.read_unread, h2.read_unread, h3.read_unread, h4.read_unread, h6.read_unread,
    View.ld_unit_zero (S := S256x1) hz, View.ld_unit_zero (S := S1x8192) hz, View.ld_unit_zero (S := S1x1) hz]

/-- The first point: the accumulator is cleared, read back, and ends at the cleared value plus the partial sum. -/
theorem scratch_first (c : Dev nD) (i : grid0.Coords) (a1 : Memref sig .tc .vmem S256x1 .f32) (h1 : a1.IsWhole)
    (a2 : Memref sig .tc .vmem S256x1 .f32) (h2 : a2.IsWhole) (a3 : Memref sig .tc .vmem S1x8192 .f32) (h3 : a3.IsWhole)
    (a4 : Memref sig .tc .vmem S1x8192 .f32) (h4 : a4.IsWhole) (a5 : Memref sig .tc .vmem S1x1 .f32) (h5 : a5.IsWhole)
    (a6 : Memref sig .tc .vmem S1x1 .f32) (h6 : a6.IsWhole) (hc0 : cond0_0 i) (hc1 : ¬cond0_1 i)
    (x0 x1 : Vec F S256x1 .f32) (x2 x3 : Vec F S1x8192 .f32) :
    sout0_A_0 c i a1 h1 a2 h2 a3 h3 a4 h4 a5 h5 a6 h6 hc0 hc1 x0 x1 x2 x3 = k0_pay2 x0 x1 x2 x3 (k0_pay1 (F := F)) := by
  unfold sout0_A_0
  rw [View.read_writes_eq_canon _ _ _ (scover0_A_0 c i a1 h1 a2 h2 a3 h3 a4 h4 a5 h5 a6 h6 hc0 hc1 x0 x1 x2 x3)]
  unfold kernelRun0_A
  dsimp only
  sl_unfold_words
  rw [View.canon_cons_unit_zero (S := S1x1) hz, View.readCov_unit_zero (S := S1x1) _ hz]
  simp only [View.readAt_eq_ld, h1.read_unread, h2.read_unread, h3.read_unread, h4.read_unread,
    View.ld_unit_zero (S := S256x1) hz, View.ld_unit_zero (S := S1x8192) hz]

/-- The last point: the accumulator ends at the carried value plus the point's partial sum, -/
theorem scratch_last (c : Dev nD) (i : grid0.Coords) (a1 : Memref sig .tc .vmem S256x1 .f32) (h1 : a1.IsWhole)
    (a2 : Memref sig .tc .vmem S256x1 .f32) (h2 : a2.IsWhole) (a3 : Memref sig .tc .vmem S1x8192 .f32) (h3 : a3.IsWhole)
    (a4 : Memref sig .tc .vmem S1x8192 .f32) (h4 : a4.IsWhole) (a5 : Memref sig .tc .vmem S1x1 .f32) (h5 : a5.IsWhole)
    (a6 : Memref sig .tc .vmem S1x1 .f32) (h6 : a6.IsWhole) (hc0 : ¬cond0_0 i) (hc1 : cond0_1 i)
    (x0 x1 : Vec F S256x1 .f32) (x2 x3 : Vec F S1x8192 .f32) (xs : Vec F S1x1 .f32) :
    sout0_C_0 c i a1 h1 a2 h2 a3 h3 a4 h4 a5 h5 a6 h6 hc0 hc1 x0 x1 x2 x3 xs = k0_pay2 x0 x1 x2 x3 xs := by
  unfold sout0_C_0
  rw [View.read_writes_eq_canon _ _ _ (scover0_C_0 c i a1 h1 a2 h2 a3 h3 a4 h4 a5 h5 a6 h6 hc0 hc1 x0 x1 x2 x3 xs)]
  unfold kernelRun0_C
  dsimp only
  sl_unfold_words
  rw [View.canon_unit_zero hz]
  simp only [View.readAt_eq_ld, h1.read_unread, h2.read_unread, h3.read_unread, h4.read_unread, h6.read_unread,
    View.ld_unit_zero (S := S256x1) hz, View.ld_unit_zero (S := S1x8192) hz, View.ld_unit_zero (S := S1x1) hz]

/-- and the output block is a copy of it. -/
theorem out_last (c : Dev nD) (i : grid0.Coords) (a1 : Memref sig .tc .vmem S256x1 .f32) (h1 : a1.IsWhole)
    (a2 : Memref sig .tc .vmem S256x1 .f32) (h2 : a2.IsWhole) (a3 : Memref sig .tc .vmem S1x8192 .f32) (h3 : a3.IsWhole)
    (a4 : Memref sig .tc .vmem S1x8192 .f32) (h4 : a4.IsWhole) (a5 : Memref sig .tc .vmem S1x1 .f32) (h5 : a5.IsWhole)
    (a6 : Memref sig .tc .vmem S1x1 .f32) (h6 : a6.IsWhole) (hc0 : ¬cond0_0 i) (hc1 : cond0_1 i)
    (x0 x1 : Vec F S256x1 .f32) (x2 x3 : Vec F S1x8192 .f32) (xs : Vec F S1x1 .f32) :
    out0_C_4 c i a1 h1 a2 h2 a3 h3 a4 h4 a5 h5 a6 h6 hc0 hc1 x0 x1 x2 x3 xs = k0_pay2 x0 x1 x2 x3 xs := by
  unfold out0_C_4
  rw [View.read_writes_eq_canon _ _ _ (cover0_C_4 c i a1 h1 a2 h2 a3 h3 a4 h4 a5 h5 a6 h6 hc0 hc1 x0 x1 x2 x3 xs)]
  unfold kernelRun0_C
  dsimp only
  sl_unfold_words
  rw [View.canon_unit_zero hz, View.readCov_unit_zero (S := S1x1) _ hz]
  simp only [View.readAt_eq_ld, h1.read_unread, h2.read_unread, h3.read_unread, h4.read_unread, h6.read_unread,
    View.ld_unit_zero (S := S256x1) hz, View.ld_unit_zero (S := S1x8192) hz, View.ld_unit_zero (S := S1x1) hz]

end Cert.KernelIdeal.Pieces

end
-- ==== Proof.LibRowSum.lean ====
/-
  A sum along the rows of a matrix, read at an index on the extended reals: a lane reduction of an [n, k] matrix
  over its columns, into the zero accumulator, is at row r the sum over the k columns of the row's entries.
-/
import Idealize.ShloMosaic.PureOps.Ideal.Laws
import Idealize.ShloMosaic.Lib.ValueIdx

namespace Idealize.ShloMosaic.ValueIdx

open Idealize.ShloMosaic

/-- The reduced index `r` with the column `d` put back is the matrix index `(r, d)`. -/
theorem lift_rows {n k : ℕ} (h : (⟨2, ![n, k]⟩ : Shape).Reduces [1] ⟨1, ![n]⟩) (r : Fin n) (d : Fin k) :
    h.lift (ix1 r) d = ix2 r d :=
  funext fun a => Fin.ext (by match a with | ⟨0, _⟩ => rfl | ⟨1, _⟩ => rfl)

/-- A float lane sum over the columns of an `[n, k]` matrix, at row `r`, is the sum of the row's `k` entries. -/
theorem multiReduction_add_rows_apply {n k : ℕ} (src : FVec Ideal ⟨2, ![n, k]⟩ .f32)
    (h : (⟨2, ![n, k]⟩ : Shape).Reduces [1] ⟨1, ![n]⟩) (hφ : FKind.Formats .f32)
    (hacc : (0x00000000#32 : BitVec 32) = FKind.add.neutral .f32 hφ) (r : Fin n) :
    multiReduction .add [1] ⟨1, ![n]⟩ src 0x00000000#32 h hφ hacc (ix1 r) = ∑ d : Fin k, src (ix2 r d) :=
  (Ideal.multiReduction_add_single src 0x00000000#32 h hφ hacc (ix1 r)).trans
    (Finset.sum_congr rfl fun d _ => congrArg src (lift_rows h r d))

end Idealize.ShloMosaic.ValueIdx
-- ==== Proof.LibColumn.lean ====
/-
  A column kept as a unit trailing axis (what `jnp.sum(…, keepdims=True)` over the last axis produces), read at an
  index: a vector of length a viewed as an [a, 1] column, and an [a, 1] column broadcast along the rows of an
  [a, b] matrix. (The library has the leading-unit-axis forms and the row broadcast [1, b] → [a, b]; these are the
  trailing-unit-axis counterparts, for any extents.)
-/
import Idealize.ShloMosaic.Lib.Pipeline.Value
import Idealize.ShloMosaic.Lib.ValueIdx

namespace Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.LibColSum.lean ====
/-
  A sum down the columns of a matrix, read at an index on the extended reals: a reduction of an [n, k] matrix over
  its rows (axis 0), into the zero accumulator, is at column c the sum over the n rows of the column's entries.
  (The counterpart, along axis 0, of the lane sum over the columns of a row.)
-/
import Idealize.ShloMosaic.PureOps.Ideal.Laws
import Idealize.ShloMosaic.Lib.ValueIdx

namespace Idealize.ShloMosaic.ColSum

open Idealize.ShloMosaic Idealize.ShloMosaic.ValueIdx
open scoped BigOperators

/-- The reduced index `c` with the row `d` put back is the matrix index `(d, c)`. -/
theorem lift_cols {n k : ℕ} (h : (⟨2, ![n, k]⟩ : Shape).Reduces [0] ⟨1, ![k]⟩) (c : Fin k) (d : Fin n) :
    h.lift (ix1 c) d = ix2 d c :=
  funext fun a => Fin.ext (by match a with | ⟨0, _⟩ => rfl | ⟨1, _⟩ => rfl)

/-- A float sum over the rows of an `[n, k]` matrix, at column `c`, is the sum of the column's `n` entries. -/
theorem multiReduction_add_cols_apply {n k : ℕ} (src : FVec Ideal ⟨2, ![n, k]⟩ .f32)
    (h : (⟨2, ![n, k]⟩ : Shape).Reduces [0] ⟨1, ![k]⟩) (hφ : FKind.Formats .f32)
    (hacc : (0x00000000#32 : BitVec 32) = FKind.add.neutral .f32 hφ) (c : Fin k) :
    multiReduction .add [0] ⟨1, ![k]⟩ src 0x00000000#32 h hφ hacc (ix1 c) = ∑ d : Fin n, src (ix2 d c) :=
  (Ideal.multiReduction_add_single src 0x00000000#32 h hφ hacc (ix1 c)).trans
    (Finset.sum_congr rfl fun d _ => congrArg src (lift_cols h c d))

end Idealize.ShloMosaic.ColSum
-- ==== Proof.BodyValue.lean ====
/-
  The body's arithmetic read at its one output entry, on the extended reals.

  From a 256-row block of scores and labels (two [256, 1] columns) and the full rows of scores and labels (two
  [1, 8192] rows) the body forms the [256, 8192] slab whose entry (r, j) is the contribution of the pair (row r of
  the block, column j), sums each row of the slab along the lanes, sums the 256 row sums, and adds the result to the
  running value.  Read at the entry (0, 0) this is:  running value + Σ r, Σ j, contribution (r, j).
-/
import proofs.«143990_j13975823581920_1_alg».proof.Proof.Gen.KernelIdeal.Skeleton
import proofs.«143990_j13975823581920_1_alg».proof.Proof.PairSum
import proofs.«143990_j13975823581920_1_alg».proof.Proof.LibRowSum
import proofs.«143990_j13975823581920_1_alg».proof.Proof.LibColumn
import proofs.«143990_j13975823581920_1_alg».proof.Proof.LibColSum
import Idealize.ShloMosaic.Lib.ValueLayout
import Idealize.ShloMosaic.Lib.Pipeline.Value

noncomputable section

namespace Cert.KernelIdeal.BodyValue

open Idealize.ShloMosaic Idealize.ShloMosaic.ValueIdx Idealize.SL.Sem
open Cert.KernelIdeal Cert.KernelIdeal.Gen PairHinge
open scoped BigOperators

/-- The slab of contributions: entry (r, j) pairs row r of the block with column j. -/
def slab (x0 x1 : Vec Ideal S256x1 .f32) (x2 x3 : Vec Ideal S1x8192 .f32) : FVec Ideal S256x8192 .f32 :=
  have v4 : FVec Ideal S256x1 .f32 := shapeCast S256x1 x0 shapeCasts_S256x1_S256x1
  have v6 : FVec Ideal S256x1 .f32 := shapeCast S256x1 x1 shapeCasts_S256x1_S256x1
  have v8 : FVec Ideal S1x8192 .f32 := shapeCast S1x8192 x2 shapeCasts_S1x8192_S1x8192
  have v10 : FVec Ideal S1x8192 .f32 := shapeCast S1x8192 x3 shapeCasts_S1x8192_S1x8192
  have one : FVec Ideal S256x1 .f32 := broadcast S256x1 (Scalar.ofBits .f32 0x3F800000#32)
  have zero : FVec Ideal S256x8192 .f32 := broadcast S256x8192 (Scalar.ofBits .f32 0x00000000#32)
  select
    (cmpf .ogt (broadcastTo S256x8192 v6 broadcasts_S256x1_S256x8192) (broadcastTo S256x8192 v10 broadcasts_S1x8192_S256x8192))
    (maximumf
      (addf (broadcastTo S256x8192 (subf one v4) broadcasts_S256x1_S256x8192)
        (broadcastTo S256x8192 v8 broadcasts_S1x8192_S256x8192))
      zero)
    zero

/-- The body's stored value is the running value plus the slab summed along its lanes and then its rows. -/
theorem pay_eq (x0 x1 : Vec Ideal S256x1 .f32) (x2 x3 : Vec Ideal S1x8192 .f32) (acc : Vec Ideal S1x1 .f32) :
    k0_pay2 (F := Ideal) x0 x1 x2 x3 acc
      = shapeCast S1x1
          (addf acc
            (shapeCast S1x1
              (multiReduction .add [0] S1
                (shapeCast S256x1
                  (multiReduction .add [1] S256 (slab x0 x1 x2 x3) 0x00000000#32 reduces_S256x8192_S256 (.inl rfl) rfl)
                  shapeCasts_S256_S256x1)
                0x00000000#32 reduces_S256x1_S1 (.inl rfl) rfl)
              shapeCasts_S1_S1x1))
          shapeCasts_S1x1_S1x1 := rfl

/-- An entry of the slab is the contribution of its pair. -/
theorem slab_apply (x0 x1 : Vec Ideal S256x1 .f32) (x2 x3 : Vec Ideal S1x8192 .f32) (r : Fin 256) (j : Fin 8192) :
    slab x0 x1 x2 x3 (ix2 r j)
      = pairTerm (x0 (ix2 r (0 : Fin 1))) (x2 (ix2 (0 : Fin 1) j)) (x1 (ix2 r (0 : Fin 1))) (x3 (ix2 (0 : Fin 1) j)) := by
  unfold slab
  rw [select_apply, cmpf_apply, maximumf_apply, addf_apply,
    broadcastTo_a1_ab_apply _ broadcasts_S256x1_S256x8192 r j,
    broadcastTo_a1_ab_apply _ broadcasts_S256x1_S256x8192 r j,
    broadcastTo_1b_ab_apply _ broadcasts_S1x8192_S256x8192 r j,
    broadcastTo_1b_ab_apply _ broadcasts_S1x8192_S256x8192 r j,
    subf_apply, shapeCast_self, shapeCast_self, shapeCast_self, shapeCast_self]
  rfl

/-- The sum of a [256, 1] column over its rows, into the zero accumulator. -/
theorem colSum_apply (v : FVec Ideal S256x1 .f32) (hφ : FKind.Formats .f32)
    (hacc : (0x00000000#32 : BitVec 32) = 0x00000000#32) :
    multiReduction .add [0] S1 v 0x00000000#32 reduces_S256x1_S1 hφ hacc (ix1 (0 : Fin 1))
      = ∑ r : Fin 256, v (ix2 r (0 : Fin 1)) :=
  ColSum.multiReduction_add_cols_apply v reduces_S256x1_S1 hφ hacc (0 : Fin 1)

/-- The sum of a [256, 8192] slab along the lanes of row `r`, into the zero accumulator. -/
theorem rowSum_apply (w : FVec Ideal S256x8192 .f32) (hφ : FKind.Formats .f32)
    (hacc : (0x00000000#32 : BitVec 32) = 0x00000000#32) (r : Fin 256) :
    multiReduction .add [1] S256 w 0x00000000#32 reduces_S256x8192_S256 hφ hacc (ix1 r)
      = ∑ j : Fin 8192, w (ix2 r j) :=
  multiReduction_add_rows_apply w reduces_S256x8192_S256 hφ hacc r

/-- The stored value at its one entry: the running value plus all contributions of the block's rows. -/
theorem pay_apply (x0 x1 : Vec Ideal S256x1 .f32) (x2 x3 : Vec Ideal S1x8192 .f32) (acc : Vec Ideal S1x1 .f32) :
    k0_pay2 (F := Ideal) x0 x1 x2 x3 acc (ix2 (0 : Fin 1) (0 : Fin 1))
      = acc (ix2 (0 : Fin 1) (0 : Fin 1))
        + ∑ r : Fin 256, ∑ j : Fin 8192,
            pairTerm (x0 (ix2 r (0 : Fin 1))) (x2 (ix2 (0 : Fin 1) j)) (x1 (ix2 r (0 : Fin 1))) (x3 (ix2 (0 : Fin 1) j)) := by
  rw [pay_eq, shapeCast_self, addf_apply, shapeCast_a_a1_apply _ shapeCasts_S1_S1x1 (0 : Fin 1) (0 : Fin 1)]
  refine congrArg (acc (ix2 (0 : Fin 1) (0 : Fin 1)) + ·) ?_
  refine (colSum_apply _ _ _).trans (Finset.sum_congr rfl fun r _ => ?_)
  refine (shapeCast_a_a1_apply _ shapeCasts_S256_S256x1 r (0 : Fin 1)).trans ?_
  exact (rowSum_apply _ _ _ r).trans (Finset.sum_congr rfl fun j _ => slab_apply x0 x1 x2 x3 r j)

/-- The cleared accumulator reads zero. -/
theorem cleared_apply : k0_pay1 (F := Ideal) (ix2 (0 : Fin 1) (0 : Fin 1)) = 0 := by
  unfold k0_pay1
  rw [shapeCast_self]
  exact Ideal.ofBits_zero_f32

end Cert.KernelIdeal.BodyValue

end
-- ==== Proof.SampledBlocks.lean ====
/-
  What the launch reads: the sampled scores and labels, block by block.

  Before the launch the host picks the 8192 sampled entries of the scores and of the labels (a negative position is
  counted from the end of the table) and views each sampled vector both as an [8192, 1] column and as a [1, 8192]
  row.  At grid point n the launch hands the body rows 256·n … 256·n + 255 of the two columns and the whole of the
  two rows.  So entry (r, 0) of a column block at point n is entry 256·n + r of the sampled vector, and entry (0, j)
  of a row block is entry j.
-/
import proofs.«143990_j13975823581920_1_alg».proof.Proof.Gen.KernelIdeal.Frame
import Idealize.ShloMosaic.Lib.Pipeline.Value
import Idealize.ShloMosaic.Lib.StableHlo.Run
import Idealize.ShloMosaic.Lib.Tactic
import Idealize.ShloMosaic.Lib.ValueIdx

noncomputable section

open Idealize.ShloMosaic Idealize.ShloMosaic.TcCoe Idealize.SL.Sem Idealize.ShloMosaic.ValueIdx

namespace Cert.KernelIdeal.Blocks

open Cert.KernelIdeal Cert.KernelIdeal.Gen

variable {F : FTy → Type} [FloatOps F]
variable (m : (ℓ : Loc nD τ sig) → Buf (Elt F) ℓ)

/-- The entries of a table picked at the sampled positions (a negative position counted from the end). -/
def sampled (x : (⟨S1000000, .f32⟩ : BufTy).Contents (Elt F)) (idx : (⟨S8192, .i32⟩ : BufTy).Contents (Elt F)) :
    (⟨S8192, .f32⟩ : BufTy).Contents (Elt F) :=
  Host.gather gather_S1000000_S8192x1_S8192_n_0_n_n_0_1_1 x
    (broadcastInDim S8192x1 ![0] bcast_S8192_S8192x1_0
      (select (cmpi .slt idx (broadcastInDim S8192 ![] bcast_S_S8192 (constantI S_ 32 0#32)))
        (addi idx (broadcastInDim S8192 ![] bcast_S_S8192 (constantI S_ 32 1000000#32))) idx))

/-- The sampled scores and labels of a launch memory. -/
abbrev scores (c : Dev nD) : (⟨S8192, .f32⟩ : BufTy).Contents (Elt F) :=
  sampled (m ((c : Thread nD τ).loc main_arg0)) (m ((c : Thread nD τ).loc main_arg2))
abbrev labels (c : Dev nD) : (⟨S8192, .f32⟩ : BufTy).Contents (Elt F) :=
  sampled (m ((c : Thread nD τ).loc main_arg1)) (m ((c : Thread nD τ).loc main_arg2))

/-! ## The four arrays the launch reads, as the host left them -/

theorem scoreCol (c : Dev nD) : V m c main_v14 = shapeCast S8192x1 (scores m c) shapeCasts_S8192_S8192x1 := by
  show StableHlo.after hostOps0 (fun b => m (c, b)) (Proc.devRef .tc main_v14) = _
  after_results
  rfl

theorem labelCol (c : Dev nD) : V m c main_v15 = shapeCast S8192x1 (labels m c) shapeCasts_S8192_S8192x1 := by
  show StableHlo.after hostOps0 (fun b => m (c, b)) (Proc.devRef .tc main_v15) = _
  after_results
  rfl

theorem scoreRow (c : Dev nD) : V m c main_v16 = shapeCast S1x8192 (scores m c) shapeCasts_S8192_S1x8192 := by
  show StableHlo.after hostOps0 (fun b => m (c, b)) (Proc.devRef .tc main_v16) = _
  after_results
  rfl

theorem labelRow (c : Dev nD) : V m c main_v17 = shapeCast S1x8192 (labels m c) shapeCasts_S8192_S1x8192 := by
  show StableHlo.after hostOps0 (fun b => m (c, b)) (Proc.devRef .tc main_v17) = _
  after_results
  rfl

/-! ## Which block each point reads -/

/-- The column blocks advance with the point; the row blocks never move. -/
theorem colIdx0 : ∀ t : Fin cfg0.N, win0_0.index t 0 = t.val ∧ win0_0.index t 1 = 0 :=
  (by decide +kernel : ∀ t : Fin grid0.N, win0_0.index t 0 = t.val ∧ win0_0.index t 1 = 0)
theorem colIdx1 : ∀ t : Fin cfg0.N, win0_1.index t 0 = t.val ∧ win0_1.index t 1 = 0 :=
  (by decide +kernel : ∀ t : Fin grid0.N, win0_1.index t 0 = t.val ∧ win0_1.index t 1 = 0)
theorem rowIdx2 : ∀ t : Fin cfg0.N, win0_2.index t 0 = 0 ∧ win0_2.index t 1 = 0 :=
  (by decide +kernel : ∀ t : Fin grid0.N, win0_2.index t 0 = 0 ∧ win0_2.index t 1 = 0)
theorem rowIdx3 : ∀ t : Fin cfg0.N, win0_3.index t 0 = 0 ∧ win0_3.index t 1 = 0 :=
  (by decide +kernel : ∀ t : Fin grid0.N, win0_3.index t 0 = 0 ∧ win0_3.index t 1 = 0)

/-- Entry (r, 0) of the score column's block at point t is sampled score 256·t + r. -/
theorem scoreCol_block (c : Dev nD) (t : Fin cfg0.N) (r : Fin 256) (k : Fin 8192) (hk : k.val = t.val * 256 + r.val) :
    (iblk m c 0 t : Vec F S256x1 .f32) (ix2 r (0 : Fin 1)) = scores m c (ix1 k) := by
  unfold iblk
  rw [View.read_apply]
  show V m c main_v14 _ = _
  rw [scoreCol]
  refine shapeCast_apply _ _ _ _ ?_
  rw [Shape.rowMajor_val_one, Shape.rowMajor_val_two]
  show k.val = (win0_0.index t 0 * 256 + 1 * r.val) * 1 + (win0_0.index t 1 * 1 + 1 * 0)
  rw [(colIdx0 t).1, (colIdx0 t).2, hk]
  omega

/-- Entry (r, 0) of the label column's block at point t is sampled label 256·t + r. -/
theorem labelCol_block (c : Dev nD) (t : Fin cfg0.N) (r : Fin 256) (k : Fin 8192) (hk : k.val = t.val * 256 + r.val) :
    (iblk m c 1 t : Vec F S256x1 .f32) (ix2 r (0 : Fin 1)) = labels m c (ix1 k) := by
  unfold iblk
  rw [View.read_apply]
  show V m c main_v15 _ = _
  rw [labelCol]
  refine shapeCast_apply _ _ _ _ ?_
  rw [Shape.rowMajor_val_one, Shape.rowMajor_val_two]
  show k.val = (win0_1.index t 0 * 256 + 1 * r.val) * 1 + (win0_1.index t 1 * 1 + 1 * 0)
  rw [(colIdx1 t).1, (colIdx1 t).2, hk]
  omega

/-- Entry (0, j) of the score row's block at any point is sampled score j. -/
theorem scoreRow_block (c : Dev nD) (t : Fin cfg0.N) (j : Fin 8192) :
    (iblk m c 2 t : Vec F S1x8192 .f32) (ix2 (0 : Fin 1) j) = scores m c (ix1 j) := by
  unfold iblk
  rw [View.read_apply]
  show V m c main_v16 _ = _
  rw [scoreRow]
  refine shapeCast_apply _ _ _ _ ?_
  rw [Shape.rowMajor_val_one, Shape.rowMajor_val_two]
  show j.val = (win0_2.index t 0 * 1 + 1 * 0) * 8192 + (win0_2.index t 1 * 8192 + 1 * j.val)
  rw [(rowIdx2 t).1, (rowIdx2 t).2]
  omega

/-- Entry (0, j) of the label row's block at any point is sampled label j. -/
theorem labelRow_block (c : Dev nD) (t : Fin cfg0.N) (j : Fin 8192) :
    (iblk m c 3 t : Vec F S1x8192 .f32) (ix2 (0 : Fin 1) j) = labels m c (ix1 j) := by
  unfold iblk
  rw [View.read_apply]
  show V m c main_v17 _ = _
  rw [labelRow]
  refine shapeCast_apply _ _ _ _ ?_
  rw [Shape.rowMajor_val_one, Shape.rowMajor_val_two]
  show j.val = (win0_3.index t 0 * 1 + 1 * 0) * 8192 + (win0_3.index t 1 * 8192 + 1 * j.val)
  rw [(rowIdx3 t).1, (rowIdx3 t).2]
  omega

end Cert.KernelIdeal.Blocks

end
-- ==== Proof.LibBlockRuns.lean ====
/-
  A running sum that restarts every `B` points.

  Let `o` and `T` be sequences in an additive commutative monoid, and suppose that at every point `n` below `N`
  the value `o n` is `0 + T n` when `n` is a multiple of `B`, and `o (n − 1) + T n` otherwise.  Then `o n` is
  the sum of `T` over the run of `n`: the points from the last multiple of `B` at or before `n` up to `n`.  In
  particular, at the last point `B · c + (B − 1)` of run `c` the value is the sum of `T` over the `B` points of
  the run.  The proof is an induction on `n`: a multiple of `B` starts a run of one point, and any other point
  extends the run of its predecessor, which has the same quotient by `B`.
-/
import Mathlib.Algebra.BigOperators.Intervals
import Mathlib.Algebra.BigOperators.Fin
import Mathlib.Order.Interval.Finset.Nat
import Mathlib.Algebra.Order.Interval.Finset.SuccPred

open scoped BigOperators

namespace Idealize.ShloMosaic.BlockRuns

variable {α : Type*} [AddCommMonoid α]

/-- A sequence that restarts at the multiples of `B` and otherwise adds to its predecessor is, at each point,
    the sum of the summands over the point's run. -/
theorem run_sum {B : ℕ} (N : ℕ) (o T : ℕ → α)
    (h0 : ∀ n < N, n % B = 0 → o n = 0 + T n)
    (hs : ∀ n < N, n % B ≠ 0 → o n = o (n - 1) + T n) :
    ∀ n < N, o n = ∑ i ∈ Finset.Icc (B * (n / B)) n, T i := by
  intro n
  induction n with
  | zero =>
    intro hn
    rw [h0 0 hn (Nat.zero_mod B), zero_add, Nat.zero_div, Nat.mul_zero, Finset.Icc_self, Finset.sum_singleton]
  | succ n ih =>
    intro hn
    by_cases hm : (n + 1) % B = 0
    · rw [h0 (n + 1) hn hm, zero_add, Nat.mul_div_cancel' (Nat.dvd_of_mod_eq_zero hm), Finset.Icc_self,
        Finset.sum_singleton]
    · have hdiv : (n + 1) / B = n / B := Nat.succ_div_of_not_dvd (fun hd => hm (Nat.mod_eq_zero_of_dvd hd))
      rw [hs (n + 1) hn hm, Nat.add_sub_cancel, ih (Nat.lt_of_succ_lt hn), hdiv,
        Finset.sum_Icc_succ_top (le_trans (Nat.mul_div_le n B) (Nat.le_succ n))]

/-- At the last point of run `c` the sequence is the sum of the summands over the `B` points of the run. -/
theorem run_end {B : ℕ} (hB : 0 < B) (N : ℕ) (o T : ℕ → α)
    (h0 : ∀ n < N, n % B = 0 → o n = 0 + T n)
    (hs : ∀ n < N, n % B ≠ 0 → o n = o (n - 1) + T n)
    (c : ℕ) (hc : B * c + (B - 1) < N) :
    o (B * c + (B - 1)) = ∑ i : Fin B, T (B * c + i.val) := by
  have hdiv : (B * c + (B - 1)) / B = c := by
    rw [Nat.mul_add_div hB, Nat.div_eq_of_lt (Nat.sub_lt hB Nat.one_pos), Nat.add_zero]
  have hlen : B * c + (B - 1) + 1 - B * c = B := by omega
  rw [run_sum N o T h0 hs _ hc, hdiv, ← Finset.Ico_add_one_right_eq_Icc, Finset.sum_Ico_eq_sum_range, hlen,
    Fin.sum_univ_eq_sum_range (fun i => T (B * c + i))]

end Idealize.ShloMosaic.BlockRuns
-- ==== Proof.Accumulated.lean ====
/-
  The launch's result: the accumulator summed over the 32 grid points is the loss.

  The accumulator starts cleared at the first point and each point adds its block's contributions
  (rows 256·n … 256·n + 255 against all 8192 columns), so after point n it holds the contributions of blocks
  0 … n, and after the last point, 31, the contributions of all rows: the loss.  The last point copies the
  accumulator to the [1, 1] output block, the only block the launch writes back; the host then views the [1, 1]
  result as a scalar.
-/
import proofs.«143990_j13975823581920_1_alg».proof.Proof.Gen.KernelIdeal.Frame
import proofs.«143990_j13975823581920_1_alg».proof.Proof.BodyPieces
import proofs.«143990_j13975823581920_1_alg».proof.Proof.BodyValue
import proofs.«143990_j13975823581920_1_alg».proof.Proof.SampledBlocks
import proofs.«143990_j13975823581920_1_alg».proof.Proof.PairSum
import proofs.«143990_j13975823581920_1_alg».proof.Proof.LibBlockRuns
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)
open scoped BigOperators

namespace Cert.KernelIdeal.Accumulated

open Cert.KernelIdeal Cert.KernelIdeal.Gen Cert.KernelIdeal.Blocks PairHinge

/-! ## The accumulator after each point, for any float values -/

section Any
variable {F : FTy → Type} [FloatOps F]
variable (m : (ℓ : Loc nD τ sig) → Buf (Elt F) ℓ)

/-- What the accumulator holds when point t starts adding: the cleared value at the first point, otherwise what
    the point before left. -/
def carried (c : Dev nD) (t : Fin cfg0.N) : Vec F S1x1 .f32 :=
  if t.val % 32 = 0 then k0_pay1 (F := F)
  else (outsAt0 m c (t.val - 1) (Nat.lt_of_le_of_lt (Nat.sub_le _ _) t.isLt)).2

/-- After every point the accumulator is the carried value plus the point's contributions (as the body's term). -/
theorem acc_after (c : Dev nD) (t : Fin cfg0.N) :
    (outsAt0 m c t.val t.isLt).2 = k0_pay2 (iblk m c 0 t) (iblk m c 1 t) (iblk m c 2 t) (iblk m c 3 t) (carried m c t) := by
  unfold carried
  by_cases h0 : t.val % 32 = 0
  · have h1 : ¬t.val % 32 = 31 := by omega
    rw [if_pos h0, outsAt0_A m c t h0 h1]
    exact Pieces.scratch_first c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t)
  · rw [if_neg h0]
    by_cases h1 : t.val % 32 = 31
    · rw [outsAt0_C m c t h0 h1]
      exact Pieces.scratch_last c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t)
        (outsAt0 m c (t.val - 1) (Nat.lt_of_le_of_lt (Nat.sub_le _ _) t.isLt)).2
    · rw [outsAt0_B m c t h0 h1]
      exact Pieces.scratch_mid c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t)
        (outsAt0 m c (t.val - 1) (Nat.lt_of_le_of_lt (Nat.sub_le _ _) t.isLt)).2

/-- At the last point the output block is a copy of the accumulator. -/
theorem out_after_last (c : Dev nD) (t : Fin cfg0.N) (h1 : t.val % 32 = 31) :
    (outsAt0 m c t.val t.isLt).1 = (outsAt0 m c t.val t.isLt).2 := by
  have h0 : ¬t.val % 32 = 0 := by omega
  rw [outsAt0_C m c t h0 h1]
  exact (Pieces.out_last c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t)
      (outsAt0 m c (t.val - 1) (Nat.lt_of_le_of_lt (Nat.sub_le _ _) t.isLt)).2).trans
    (Pieces.scratch_last c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t)
      (outsAt0 m c (t.val - 1) (Nat.lt_of_le_of_lt (Nat.sub_le _ _) t.isLt)).2).symm

end Any

/-! ## On the extended reals -/

variable (m : (ℓ : Loc nD τ sig) → Buf (Elt Ideal) ℓ) (ρ : Dev nD → PrngReg)

/-- The contribution of a pair depends only on its four entries. -/
theorem pairTerm_congr {a a' b b' u u' v v' : Ideal .f32} (ha : a = a') (hb : b = b') (hu : u = u') (hv : v = v') :
    pairTerm a b u v = pairTerm a' b' u' v' := by subst ha hb hu hv; rfl

/-- One point adds its block's contributions to the running value. -/
theorem point_adds (c : Dev nD) (t : Fin cfg0.N) (acc : Vec Ideal S1x1 .f32) (n : Fin 32) (hn : n.val = t.val) :
    k0_pay2 (F := Ideal) (iblk m c 0 t) (iblk m c 1 t) (iblk m c 2 t) (iblk m c 3 t) acc (ix2 (0 : Fin 1) (0 : Fin 1))
      = acc (ix2 (0 : Fin 1) (0 : Fin 1)) + blockTotal (scores m c) (labels m c) n := by
  refine (BodyValue.pay_apply (iblk m c 0 t) (iblk m c 1 t) (iblk m c 2 t) (iblk m c 3 t) acc).trans ?_
  refine congrArg (acc (ix2 (0 : Fin 1) (0 : Fin 1)) + ·) ?_
  unfold blockTotal rowTotal
  refine Finset.sum_congr rfl fun r _ => Finset.sum_congr rfl fun j _ => ?_
  exact pairTerm_congr
    (scoreCol_block m c t r ⟨n.val * 256 + r.val, SumBlocks.idx_lt n r⟩ (congrArg (fun x => x * 256 + r.val) hn))
    (scoreRow_block m c t j)
    (labelCol_block m c t r ⟨n.val * 256 + r.val, SumBlocks.idx_lt n r⟩ (congrArg (fun x => x * 256 + r.val) hn))
    (labelRow_block m c t j)

/-- The accumulator's entry after point n (zero past the grid). -/
def accAt (c : Dev nD) (n : ℕ) : Ideal .f32 :=
  if h : n < cfg0.N then (outsAt0 m c n h).2 (ix2 (0 : Fin 1) (0 : Fin 1)) else 0

/-- Block n's contributions (zero past the grid). -/
def blockAt (c : Dev nD) (n : ℕ) : Ideal .f32 :=
  if h : n < 32 then blockTotal (scores m c) (labels m c) ⟨n, h⟩ else 0

theorem accAt_first (c : Dev nD) (n : ℕ) (hn : n < 32) (h0 : n % 32 = 0) : accAt m c n = 0 + blockAt m c n := by
  have hN : n < cfg0.N := lt_of_lt_of_eq hn (show cfg0.N = 32 from N_0).symm
  unfold accAt blockAt
  rw [dif_pos hN, dif_pos hn, acc_after m c ⟨n, hN⟩, point_adds m c ⟨n, hN⟩ _ ⟨n, hn⟩ rfl]
  unfold carried
  rw [if_pos h0, BodyValue.cleared_apply]

theorem accAt_step (c : Dev nD) (n : ℕ) (hn : n < 32) (h0 : n % 32 ≠ 0) :
    accAt m c n = accAt m c (n - 1) + blockAt m c n := by
  have hN : n < cfg0.N := lt_of_lt_of_eq hn (show cfg0.N = 32 from N_0).symm
  have hN' : n - 1 < cfg0.N := Nat.lt_of_le_of_lt (Nat.sub_le _ _) hN
  unfold accAt blockAt
  rw [dif_pos hN, dif_pos hN', dif_pos hn, acc_after m c ⟨n, hN⟩, point_adds m c ⟨n, hN⟩ _ ⟨n, hn⟩ rfl]
  unfold carried
  rw [if_neg h0]

/-- After the last point the accumulator holds the loss of the sampled scores and labels. -/
theorem accAt_last (c : Dev nD) : accAt m c 31 = total (scores m c) (labels m c) := by
  have h := Idealize.ShloMosaic.BlockRuns.run_end (B := 32) (by decide) 32 (accAt m c) (blockAt m c)
    (fun n hn h0 => accAt_first m c n hn h0) (fun n hn h0 => accAt_step m c n hn h0) 0 (by decide)
  rw [total_eq_blocks]
  refine h.trans (Finset.sum_congr rfl fun i _ => ?_)
  unfold blockAt
  rw [dif_pos (by have := i.isLt; omega)]
  exact congrArg (blockTotal (scores m c) (labels m c)) (Fin.ext (by show 32 * 0 + i.val = i.val; omega))

/-- A [1, 1] array has one entry. -/
theorem only_entry (z : (⟨2, ![1, 1]⟩ : Shape).Idx) : z = ix2 (0 : Fin 1) (0 : Fin 1) := by
  have h0 := idx2_lt0 z
  have h1 := idx2_lt1 z
  funext a
  match a with
  | ⟨0, _⟩ => exact Fin.ext (by show (z 0).val = 0; omega)
  | ⟨1, _⟩ => exact Fin.ext (by show (z 1).val = 0; omega)

/-- The loss, as contents of the launch's [1, 1] result array. -/
abbrev lossArr (c : Dev nD) : Buf (Elt Ideal) ((c : Thread nD τ).loc main_v18) :=
  fun _ => total (scores m c) (labels m c)

/-- The one write-back, at the last point, writes the loss. -/
theorem flushed_eq (c : Dev nD) (t : Fin cfg0.N) (hf : (cfg0.win 4).flush t = true) :
    (dats m 0 c).flushed 4 t = ((cfg0.win 4).blk t).view.read (Elt Ideal) (lossArr m c) := by
  have h31 : t.val % 32 = 31 := (flush0_4 t).mp hf
  have hN : t.val < 32 := lt_of_lt_of_eq t.isLt (show cfg0.N = 32 from N_0)
  funext y
  rw [View.read_apply]
  show (dats m 0 c).after 4 t ((cfg0.win 4).xinj (grid0.coords t) y) = total (scores m c) (labels m c)
  rw [after0_4, out_after_last m c t h31]
  rw [only_entry ((cfg0.win 4).xinj (grid0.coords t) y)]
  obtain ⟨n, hn⟩ := t
  obtain rfl : n = 31 := by dsimp only at h31 hN; omega
  refine Eq.trans ?_ (accAt_last m c)
  unfold accAt
  rw [dif_pos hn]

/-- The last grid point. -/
abbrev lastPt : Fin cfg0.N := ⟨31, by rw [show cfg0.N = 32 from N_0]; decide⟩

/-- So the launch's result array ends holding the loss. -/
theorem final (c : Dev nD) : (dats m 0 c).arrAt 4 cfg0.N = lossArr m c :=
  (dats m 0 c).arrAt_eq_of_cover 4 (lossArr m c) (flushed_eq m c) fun i =>
    ⟨lastPt, (flush0_4 lastPt).mpr rfl, by
      show i ∈ ((View.whole main_v18).slice (win0_4.rect lastPt)).set
      rw [View.set_slice_whole, Rect.mem_set_unit]
      intro a
      have h0 : (i 0 : Nat) < 1 := (i 0).isLt
      have h1 : (i 1 : Nat) < 1 := (i 1).isLt
      match a with
      | ⟨0, _⟩ =>
        show win0_4.index lastPt 0 * win0_4.size 0 ≤ (i 0 : Nat) ∧ (i 0 : Nat) < win0_4.index lastPt 0 * win0_4.size 0 + win0_4.xsize (grid0.coords lastPt) 0
        rw [show win0_4.index lastPt 0 * win0_4.size 0 = 0 from by decide +kernel, show win0_4.xsize (grid0.coords lastPt) 0 = 1 from by decide +kernel]; omega
      | ⟨1, _⟩ =>
        show win0_4.index lastPt 1 * win0_4.size 1 ≤ (i 1 : Nat) ∧ (i 1 : Nat) < win0_4.index lastPt 1 * win0_4.size 1 + win0_4.xsize (grid0.coords lastPt) 1
        rw [show win0_4.index lastPt 1 * win0_4.size 1 = 0 from by decide +kernel, show win0_4.xsize (grid0.coords lastPt) 1 = 1 from by decide +kernel]; omega⟩

/-- The host's view of the [1, 1] result as a scalar reads the loss. -/
theorem tail_eq (c : Dev nD) :
    Pipeline.afterTail₀ cfgs (dats m) 0 (V0 m) [hostOps1] c main_v19 = fun _ => total (scores m c) (labels m c) := by
  unfold Pipeline.afterTail₀
  show StableHlo.after hostOps1 _ (Proc.devRef .tc main_v19) = _
  after_results
  have e : Pipeline.withArrays (cfgs 0).spec c (V0 m c) (fun w => (dats m 0 c).arrAt w (cfgs 0).N) (Proc.devRef .tc main_v18)
      = lossArr m c :=
    (Pipeline.withArrays_arr spec0 launch0.win.arr_inj c _ _ 4).trans (final m c)
  rw [e]
  rfl

/-- The run, read: the scalar result at the loss of the sampled scores and labels, the arguments unchanged. -/
theorem run : θ_run defs (onTc (τ := τ) (main (F := Ideal))) ⟨m, fun _ => 0, ρ⟩ fun r => ∀ c : Dev nD,
      r.2.mem ((c.tc : Thread nD τ).loc main_v19) = (fun _ => total (scores m c) (labels m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v19 (Pipeline.mem_restRefs_of main_v19 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Accumulated

end
-- ==== Proof.lean ====
/-
  A pairwise ranking hinge loss over 8192 sampled positions: the tiled kernel against the plain formula.

  Both programs pick the same 8192 sampled scores p and labels t out of the two tables (the same host operations on
  the same arguments).  The reference forms the full [8192, 8192] square of contributions
      c (a, b) = max ((1 − p a) + p b, 0) where t a > t b, and 0 elsewhere,
  and sums it.  The kernel walks 32 blocks of 256 rows; at each block it forms the [256, 8192] slab of the same
  contributions, sums it along the lanes and then along the rows, and adds the block's sum to a one-entry
  accumulator cleared at the first block; after the last block the accumulator is copied out.

  On the extended reals both results are the same sum of the same 8192 · 8192 terms, grouped differently: the
  reference's Σ over all pairs is Σ a, Σ b, and the kernel's is Σ over blocks n, Σ over rows r of the block,
  Σ b, with a = 256·n + r.  Only commutativity and associativity of addition are used (a sum over 8192 rows read
  as 32 blocks of 256), so the finiteness of the inputs is never needed.

  The frames of the two kernel programs and the reference's run are the generated ones; the idealization rewrote
  nothing, so there is nothing to preserve.
-/
import proofs.«143990_j13975823581920_1_alg».proof.Defs
import proofs.«143990_j13975823581920_1_alg».proof.Proof.Gen.Kernel
import proofs.«143990_j13975823581920_1_alg».proof.Proof.Gen.Kernel.Skeleton
import proofs.«143990_j13975823581920_1_alg».proof.Proof.Gen.Kernel.Launch
import proofs.«143990_j13975823581920_1_alg».proof.Proof.Gen.Kernel.Points
import proofs.«143990_j13975823581920_1_alg».proof.Proof.Gen.Kernel.Frame
import proofs.«143990_j13975823581920_1_alg».proof.Proof.Gen.KernelIdeal
import proofs.«143990_j13975823581920_1_alg».proof.Proof.Gen.KernelIdeal.Skeleton
import proofs.«143990_j13975823581920_1_alg».proof.Proof.Gen.KernelIdeal.Launch
import proofs.«143990_j13975823581920_1_alg».proof.Proof.Gen.KernelIdeal.Points
import proofs.«143990_j13975823581920_1_alg».proof.Proof.Gen.KernelIdeal.Frame
import proofs.«143990_j13975823581920_1_alg».proof.Proof.Gen.ReferenceIdeal
import proofs.«143990_j13975823581920_1_alg».proof.Proof.Gen.Pre_finite_inputs
import proofs.«143990_j13975823581920_1_alg».proof.Proof.Gen.ReferenceIdeal.Run
import proofs.«143990_j13975823581920_1_alg».proof.Proof.Gen.ReferenceIdeal.Read
import proofs.«143990_j13975823581920_1_alg».proof.Proof.PairSum
import proofs.«143990_j13975823581920_1_alg».proof.Proof.RefValue
import proofs.«143990_j13975823581920_1_alg».proof.Proof.Accumulated
import Idealize.ShloMosaic.Adequacy
import Idealize.ShloMosaic.Init

noncomputable section

namespace Cert.Proof

open Idealize.ShloMosaic Idealize.SL.Sem PairHinge

/-- The word-level kernel runs and leaves its arguments alone. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments alone: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- On the extended reals the kernel's scalar result and the reference's are both the loss of the sampled scores
    and labels of arguments that agree. -/
theorem algebraic : Cert.algebraic_KernelIdeal_ReferenceIdeal := by
  intro m ρ m' ρ' _ hagree
  refine ⟨fun c => fun _ => total (Cert.KernelIdeal.Blocks.scores m c) (Cert.KernelIdeal.Blocks.labels m c),
    Cert.KernelIdeal.Accumulated.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v28_eq]
  funext i
  rw [Cert.ReferenceIdeal.RefValue.result_eq, (hagree c).1, (hagree c).2.1, (hagree c).2.2]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
